-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000x2 : Shape := ⟨2, ![800000, 2]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256x256 .f32) (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S50000x256 .f32) (main_arg1 : FVec F S50000x256 .f32) (main_arg2 : IVec S800000x2 32) (main_arg3 : FVec F S256x256 .f32) (main_arg4 : FVec F S256 .f32) (main_arg5 : FVec F S256x256 .f32) (main_arg6 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S50000x256 : Shape := ⟨2, ![50000, 256]⟩
abbrev S800000x2 : Shape := ⟨2, ![800000, 2]⟩
abbrev S256x256 : Shape := ⟨2, ![256, 256]⟩
abbrev S256 : Shape := ⟨1, ![256]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x256 : Shape := ⟨2, ![5000, 256]⟩
abbrev S850000x256 : Shape := ⟨2, ![850000, 256]⟩
abbrev S1x256 : Shape := ⟨2, ![1, 256]⟩

abbrev nBuf : Space → Nat
  | .hbm => 89
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S50000x256, .f32⟩
  | .hbm, ⟨2, _⟩ => ⟨S800000x2, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S2x800000, .i32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x256, .f32⟩
  | .hbm, ⟨52, _⟩ => ⟨S850000x1, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x256, .f32⟩
  | .hbm, ⟨62, _⟩ => ⟨S850000x256, .f32⟩
  | .hbm, ⟨63, _⟩ => ⟨S850000x256, .f32⟩
  | .hbm, ⟨64, _⟩ => ⟨S_, .f32⟩
  | .hbm, ⟨65, _⟩ => ⟨S50000x256, .f32⟩
  | .hbm, ⟨66, _⟩ => ⟨S850000x1, .i32⟩
  | .hbm, ⟨67, _⟩ => ⟨S50000x256, .f32⟩
  | .hbm, ⟨68, _⟩ => ⟨S1x256, .f32⟩
  | .hbm, ⟨69, _⟩ => ⟨S50000x256, .f32⟩
  | .hbm, ⟨70, _⟩ => ⟨S50000x256, .f32⟩
  | .hbm, ⟨71, _⟩ => ⟨S850000x1, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x256, .f32⟩
  | .hbm, ⟨81, _⟩ => ⟨S850000x256, .f32⟩
  | .hbm, ⟨82, _⟩ => ⟨S850000x256, .f32⟩
  | .hbm, ⟨83, _⟩ => ⟨S_, .f32⟩
  | .hbm, ⟨84, _⟩ => ⟨S50000x256, .f32⟩
  | .hbm, ⟨85, _⟩ => ⟨S850000x1, .i32⟩
  | .hbm, ⟨86, _⟩ => ⟨S50000x256, .f32⟩
  | .hbm, ⟨87, _⟩ => ⟨S1x256, .f32⟩
  | .hbm, ⟨88, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S1x256, .f32⟩
  | .local _ .vmem, ⟨18, _⟩ => ⟨S5000x256, .f32⟩
  | .local _ .vmem, ⟨19, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_c_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  transposes_S800000x2_S2x800000_1_0 : S800000x2.Transposes [1, 0] S2x800000
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x256_S5000x256_1_0_0_1_n_n_wf : DotDims.WF S5000x256 S256x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x256.size a ≤ S50000x256.size a
  hwx3_2 : ∀ i : grid3.Coords, EltTy.bits .f32 = 32 ∨ (Rect.block (s := S50000x256) S5000x256.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S5000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S800000x2 : Shape := ⟨2, ![800000, 2]⟩
abbrev S256x256 : Shape := ⟨2, ![256, 256]⟩
abbrev S256 : Shape := ⟨1, ![256]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩

abbrev nBuf : Space → Nat
  | .hbm => 97
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000x256, .f32⟩
  | .hbm, ⟨2, _⟩ => ⟨S800000x2, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S2x800000, .i32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x256, .f32⟩
  | .hbm, ⟨52, _⟩ => ⟨S850000x1, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x256, .f32⟩
  | .hbm, ⟨62, _⟩ => ⟨S850000x256, .f32⟩
  | .hbm, ⟨63, _⟩ => ⟨S850000x256, .f32⟩
  | .hbm, ⟨64, _⟩ => ⟨S_, .f32⟩
  | .hbm, ⟨65, _⟩ => ⟨S50000x256, .f32⟩
  | .hbm, ⟨66, _⟩ => ⟨S850000x1, .i32⟩
  | .hbm, ⟨67, _⟩ => ⟨S50000x256, .f32⟩
  | .hbm, ⟨68, _⟩ => ⟨S1x256, .f32⟩
  | .hbm, ⟨69, _⟩ => ⟨S50000x256, .f32⟩
  | .hbm, ⟨70, _⟩ => ⟨S50000x256, .f32⟩
  | .hbm, ⟨71, _⟩ => ⟨S_, .f32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S850000x1, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x256, .f32⟩
  | .hbm, ⟨85, _⟩ => ⟨S850000x256, .f32⟩
  | .hbm, ⟨86, _⟩ => ⟨S850000x256, .f32⟩
  | .hbm, ⟨87, _⟩ => ⟨S_, .f32⟩
  | .hbm, ⟨88, _⟩ => ⟨S50000x256, .f32⟩
  | .hbm, ⟨89, _⟩ => ⟨S850000x1, .i32⟩
  | .hbm, ⟨90, _⟩ => ⟨S50000x256, .f32⟩
  | .hbm, ⟨91, _⟩ => ⟨S1x256, .f32⟩
  | .hbm, ⟨92, _⟩ => ⟨S50000x256, .f32⟩
  | .hbm, ⟨93, _⟩ => ⟨S50000x256, .f32⟩
  | .hbm, ⟨94, _⟩ => ⟨S_, .f32⟩
  | .hbm, ⟨95, _⟩ => ⟨S50000x256, .f32⟩
  | .hbm, ⟨96, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call1_cst : Ref sig .tc := ⟨.hbm, 71, rfl⟩
abbrev main_call1_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_c_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_call2_cst : Ref sig .tc := ⟨.hbm, 94, rfl⟩
abbrev main_call2_v0 : Ref sig .tc := ⟨.hbm, 95, rfl⟩
abbrev main_v68 : Ref sig .tc := ⟨.hbm, 96, rfl⟩

abbrev nD : Nat := 1
abbrev τ : Topo := Topo.v7x

variable {F : FTy → Type} [FloatOps F]

class Facts₀ : Prop where
  transposes_S800000x2_S2x800000_1_0 : S800000x2.Transposes [1, 0] S2x800000
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

class Facts : Prop extends Facts₀ where

variable [Facts]
-- ==== Proof.KernelRun.lean ====
/-
  The kernel program's run with its two results named.

  The program is four kernel regions among stretches of host operations. Its buffer contents at each boundary are a fold
  from the launch memory: a host stretch applies its operations, a region replaces its windows' arrays by what its
  write-backs leave and keeps every other buffer. Every weakly fair execution terminates, faults nowhere, and ends with
  every unscoped buffer at the fold's last valuation; read at the two result buffers and at the seven arguments, that is
  the statement here. The arguments are never written, so the fold returns their launch contents.
-/
import proofs.«117845_j26242250178564_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; each result buffer ends at the last valuation of the fold,
    each argument at its launch contents. -/
theorem run : θ_run defs (onTc (τ := τ) (main (F := F))) ⟨m, fun _ => 0, ρ⟩ (fun r => ∀ c : Dev nD,
      r.2.mem ((c.tc : Thread nD τ).loc main_v48) = W9 m ρ c (Proc.devRef .tc main_v48)
      ∧ r.2.mem ((c.tc : Thread nD τ).loc main_v64) = W9 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v48 (by decide)),
       h c _ (mem_uc main_v64 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Results

end
-- ==== Proof.HostReads.lean ====
/-
  What the host operations before the first kernel region compute, read off the kernel program's own buffers.

  Before its first region the kernel program runs three stretches of host operations on the edge list alone: it splits
  the list into sources and destinations and appends a self-loop per node (buffers %4 and %7), counts in-degrees by a
  scatter-add of ones, takes `where(deg > 0, rsqrt(max(deg, 1)), 0)` (%17, the middle stretch, an outlined `where`),
  gathers that at both ends of every edge and multiplies (%32, the edge weights). The reference program opens with the
  same operations, and each of these buffers ends holding the reference's stage of the same name applied to the edge
  list. The stretches are read one at a time, the valuation a stretch starts from kept as a variable, so no term grows
  beyond one stretch. The float arguments are written by none of the three stretches.
-/
import proofs.«117845_j26242250178564_1_alg».proof.Proof.Gen.KernelIdeal.Frame
import proofs.«117845_j26242250178564_1_alg».proof.Proof.RefRead
import Idealize.ShloMosaic.Lib.StableHlo.Run

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo
open Cert.ReferenceIdeal.ReadP

/-- A stretch of host operations leaves a buffer none of its operations writes as it found it: the stretch's list is
    opened and each operation's written buffer compared with the one asked about. -/
macro "unwritten" "[" ops:ident "]" : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg)

/-- The edge list as launched. -/
abbrev edges (c : Dev nD) : (⟨S800000x2, .i32⟩ : BufTy).Contents (Elt Ideal) := m ((c.tc : Thread nD τ).loc main_arg2)

/-! ## After the first stretch -/

theorem src1 (c : Dev nD) : W1 m ρ c (Proc.devRef .tc main_v4) = val_main_v4 (F := Ideal) (edges m c) := by
  show StableHlo.after hostOps0 (W0 m ρ c) (Proc.devRef .tc main_v4) = _
  after_results
  rfl
theorem dst1 (c : Dev nD) : W1 m ρ c (Proc.devRef .tc main_v7) = val_main_v7 (F := Ideal) (edges m c) := by
  show StableHlo.after hostOps0 (W0 m ρ c) (Proc.devRef .tc main_v7) = _
  after_results
  rfl
theorem pos1 (c : Dev nD) : W1 m ρ c (Proc.devRef .tc main_v13) = val_main_v13 (F := Ideal) (edges m c) := by
  show StableHlo.after hostOps0 (W0 m ρ c) (Proc.devRef .tc main_v13) = _
  after_results
  rfl
theorem rsq1 (c : Dev nD) : W1 m ρ c (Proc.devRef .tc main_v16) = val_main_v16 (F := Ideal) (edges m c) := by
  show StableHlo.after hostOps0 (W0 m ρ c) (Proc.devRef .tc main_v16) = _
  after_results
  rfl
theorem zero1 (c : Dev nD) : W1 m ρ c (Proc.devRef .tc main_cst_3) = val_main_cst_3 (F := Ideal) := by
  show StableHlo.after hostOps0 (W0 m ρ c) (Proc.devRef .tc main_cst_3) = _
  after_results
  rfl

/-! ## After the second stretch (the outlined `where`) -/

theorem src2 (c : Dev nD) : W2 m ρ c (Proc.devRef .tc main_v4) = val_main_v4 (F := Ideal) (edges m c) :=
  (show W2 m ρ c (Proc.devRef .tc main_v4) = W1 m ρ c (Proc.devRef .tc main_v4) by unwritten [hostOps0_1]).trans (src1 m ρ c)
theorem dst2 (c : Dev nD) : W2 m ρ c (Proc.devRef .tc main_v7) = val_main_v7 (F := Ideal) (edges m c) :=
  (show W2 m ρ c (Proc.devRef .tc main_v7) = W1 m ρ c (Proc.devRef .tc main_v7) by unwritten [hostOps0_1]).trans (dst1 m ρ c)
theorem dinv2 (c : Dev nD) : W2 m ρ c (Proc.devRef .tc main_v17) = val_main_v17 (F := Ideal) (edges m c) := by
  show StableHlo.after hostOps0_1 (W1 m ρ c) (Proc.devRef .tc main_v17) = _
  have e13 := pos1 m ρ c
  have e16 := rsq1 m ρ c
  have e3 := zero1 m ρ c
  generalize W1 m ρ c = U at e13 e16 e3 ⊢
  after_results
  -- only this stretch's own stages are opened; the stages it reads are turned back into the valuation's entries, so the
  -- two sides differ by nothing but transports along reflexive equations
  unfold val_main_v17 val_main_call0_v1 val_main_call0_v0
  rw [← e13, ← e16, ← e3]
  rfl

/-! ## After the third stretch: the first region's entry -/

theorem src3 (c : Dev nD) : W3 m ρ c (Proc.devRef .tc main_v4) = val_main_v4 (F := Ideal) (edges m c) :=
  (show W3 m ρ c (Proc.devRef .tc main_v4) = W2 m ρ c (Proc.devRef .tc main_v4) by unwritten [hostOps0_2]).trans (src2 m ρ c)
theorem dst3 (c : Dev nD) : W3 m ρ c (Proc.devRef .tc main_v7) = val_main_v7 (F := Ideal) (edges m c) :=
  (show W3 m ρ c (Proc.devRef .tc main_v7) = W2 m ρ c (Proc.devRef .tc main_v7) by unwritten [hostOps0_2]).trans (dst2 m ρ c)
theorem weight3 (c : Dev nD) : W3 m ρ c (Proc.devRef .tc main_v32) = val_main_v32 (F := Ideal) (edges m c) := by
  show StableHlo.after hostOps0_2 (W2 m ρ c) (Proc.devRef .tc main_v32) = _
  have e17 := dinv2 m ρ c
  have e4 := src2 m ρ c
  have e7 := dst2 m ρ c
  generalize W2 m ρ c = U at e17 e4 e7 ⊢
  after_results_simp
  unfold val_main_v32 val_main_v24 val_main_v31 val_main_v23 val_main_v30 val_main_v22 val_main_v29 val_main_v19 val_main_v21
    val_main_v26 val_main_v28 val_main_v18 val_main_v20 val_main_v25 val_main_v27 val_main_c val_main_c_4 val_main_c_5 val_main_c_6
  rw [← e17, ← e4, ← e7]
  rfl

/-- A buffer none of the three stretches writes holds its launch contents at the first region's entry. -/
theorem kept3 (c : Dev nD) (b : Ref sig .tc)
    (h0 : StableHlo.after hostOps0 (W0 m ρ c) (Proc.devRef .tc b) = W0 m ρ c (Proc.devRef .tc b))
    (h1 : StableHlo.after hostOps0_1 (W1 m ρ c) (Proc.devRef .tc b) = W1 m ρ c (Proc.devRef .tc b))
    (h2 : StableHlo.after hostOps0_2 (W2 m ρ c) (Proc.devRef .tc b) = W2 m ρ c (Proc.devRef .tc b)) :
    W3 m ρ c (Proc.devRef .tc b) = m ((c : Thread nD τ).loc b) :=
  h2.trans (h1.trans h0)

theorem arg0_3 (c : Dev nD) : W3 m ρ c (Proc.devRef .tc main_arg0) = m ((c : Thread nD τ).loc main_arg0) :=
  kept3 m ρ c main_arg0 (by unwritten [hostOps0]) (by unwritten [hostOps0_1]) (by unwritten [hostOps0_2])
theorem arg1_3 (c : Dev nD) : W3 m ρ c (Proc.devRef .tc main_arg1) = m ((c : Thread nD τ).loc main_arg1) :=
  kept3 m ρ c main_arg1 (by unwritten [hostOps0]) (by unwritten [hostOps0_1]) (by unwritten [hostOps0_2])
theorem arg3_3 (c : Dev nD) : W3 m ρ c (Proc.devRef .tc main_arg3) = m ((c : Thread nD τ).loc main_arg3) :=
  kept3 m ρ c main_arg3 (by unwritten [hostOps0]) (by unwritten [hostOps0_1]) (by unwritten [hostOps0_2])
theorem arg4_3 (c : Dev nD) : W3 m ρ c (Proc.devRef .tc main_arg4) = m ((c : Thread nD τ).loc main_arg4) :=
  kept3 m ρ c main_arg4 (by unwritten [hostOps0]) (by unwritten [hostOps0_1]) (by unwritten [hostOps0_2])
theorem arg5_3 (c : Dev nD) : W3 m ρ c (Proc.devRef .tc main_arg5) = m ((c : Thread nD τ).loc main_arg5) :=
  kept3 m ρ c main_arg5 (by unwritten [hostOps0]) (by unwritten [hostOps0_1]) (by unwritten [hostOps0_2])
theorem arg6_3 (c : Dev nD) : W3 m ρ c (Proc.devRef .tc main_arg6) = m ((c : Thread nD τ).loc main_arg6) :=
  kept3 m ρ c main_arg6 (by unwritten [hostOps0]) (by unwritten [hostOps0_1]) (by unwritten [hostOps0_2])

end Cert.KernelIdeal.HostReads

end
-- ==== Proof.BlockProduct.lean ====
/-
  One block of the row-tiled matrix product, read at an entry.

  The matmul body loads a block of 5000 rows of the left operand and the whole 256 × 256 right operand, narrows both to
  bf16 and multiplies them on the matrix unit into an accumulator of zeros. On the extended reals a change of float
  format is the identity and the zero accumulator is the neutral element of the sum, so the product at row `p` and
  column `q` of the block is the plain sum, over the contracted coordinate `k`, of
  (block row `p`, column `k`) · (right operand row `k`, column `q`). The contraction has one axis; its index set is
  identified with that axis's coordinates and the sum re-indexed through the identification.
-/
import proofs.«117845_j26242250178564_1_alg».proof.Proof.Gen.KernelIdeal.Skeleton
import Idealize.ShloMosaic.Lib.ValueIdx
import Idealize.ShloMosaic.PureOps.Ideal.Laws

noncomputable section

open scoped BigOperators

namespace Cert.KernelIdeal.BlockProduct

open Cert.KernelIdeal Cert.KernelIdeal.Gen Idealize.ShloMosaic Idealize.ShloMosaic.ValueIdx

/-- The left factor of the term at contraction index `κ` lies in the output entry's row … -/
theorem lhs_row (j : S5000x256.Idx) (κ : dot_S5000x256_S256x256_S5000x256_1_0_0_1_n_n.contr.Idx) :
    (dot_S5000x256_S256x256_S5000x256_1_0_0_1_n_n.lhsIdx j κ 0).val = (j 0).val := by
  unfold DotDims.lhsIdx
  rw [dif_neg (show ¬(0 : Fin S5000x256.rank) ∈ dot_S5000x256_S256x256_S5000x256_1_0_0_1_n_n.lhsBatch by decide),
    dif_pos (show (0 : Fin S5000x256.rank) ∈ dot_S5000x256_S256x256_S5000x256_1_0_0_1_n_n.lhsNonContracting by decide)]
  rfl
/-- … in the column the contraction index names; -/
theorem lhs_col (j : S5000x256.Idx) (κ : dot_S5000x256_S256x256_S5000x256_1_0_0_1_n_n.contr.Idx) :
    (dot_S5000x256_S256x256_S5000x256_1_0_0_1_n_n.lhsIdx j κ 1).val = (κ ⟨0, by decide⟩).val :=
  dot_S5000x256_S256x256_S5000x256_1_0_0_1_n_n.lhsIdx_val_of_single rfl j κ
/-- the right factor lies in the row the contraction index names … -/
theorem rhs_row (j : S5000x256.Idx) (κ : dot_S5000x256_S256x256_S5000x256_1_0_0_1_n_n.contr.Idx) :
    (dot_S5000x256_S256x256_S5000x256_1_0_0_1_n_n.rhsIdx j κ 0).val = (κ ⟨0, by decide⟩).val :=
  dot_S5000x256_S256x256_S5000x256_1_0_0_1_n_n.rhsIdx_val_of_single rfl j κ
/-- … in the output entry's column. -/
theorem rhs_col (j : S5000x256.Idx) (κ : dot_S5000x256_S256x256_S5000x256_1_0_0_1_n_n.contr.Idx) :
    (dot_S5000x256_S256x256_S5000x256_1_0_0_1_n_n.rhsIdx j κ 1).val = (j 1).val := by
  unfold DotDims.rhsIdx
  rw [dif_neg (show ¬(1 : Fin S256x256.rank) ∈ dot_S5000x256_S256x256_S5000x256_1_0_0_1_n_n.rhsBatch by decide),
    dif_pos (show (1 : Fin S256x256.rank) ∈ dot_S5000x256_S256x256_S5000x256_1_0_0_1_n_n.rhsNonContracting by decide)]
  rfl

/-- The matrix unit's product of a block of rows `xb` with the right operand `w` into zeros, at row `p` and column
    `q`: the sum over `k` of `xb p k · w k q` on the extended reals. -/
theorem product_apply (xb : Vec Ideal S5000x256 .f32) (w : Vec Ideal S256x256 .f32) (p : Fin 5000) (q : Fin 256) :
    FloatOps.matmul (F := Ideal) dot_S5000x256_S256x256_S5000x256_1_0_0_1_n_n none
        (truncf .bf16 xb bitsLt_bf16_f32 : FVec Ideal S5000x256 .bf16) (truncf .bf16 w bitsLt_bf16_f32 : FVec Ideal S256x256 .bf16)
        (constant S5000x256 .f32 0x00000000#32) (ix2 p q)
      = ∑ k : Fin 256, xb (ix2 p k) * w (ix2 k q) := by
  rw [Ideal.matmul_constant_zero_apply,
    ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q)
      ((contrEquiv1 dot_S5000x256_S256x256_S5000x256_1_0_0_1_n_n 256 rfl rfl).symm k) = ix2 p k :=
    funext fun a => Fin.ext (by
      match a with
      | ⟨0, _⟩ => exact lhs_row _ _
      | ⟨1, _⟩ => exact (lhs_col _ _).trans hk)
  have er : dot_S5000x256_S256x256_S5000x256_1_0_0_1_n_n.rhsIdx (ix2 p q)
      ((contrEquiv1 dot_S5000x256_S256x256_S5000x256_1_0_0_1_n_n 256 rfl rfl).symm k) = ix2 k q :=
    funext fun a => Fin.ext (by
      match a with
      | ⟨0, _⟩ => exact (rhs_row _ _).trans hk
      | ⟨1, _⟩ => exact rhs_col _ _)
  rw [el, er]
  rfl

/-- The first matmul region's stored value is that product … -/
theorem pay0_apply (xb : Vec Ideal S5000x256 .f32) (w : Vec Ideal S256x256 .f32) (p : Fin 5000) (q : Fin 256) :
    k0_pay1 (F := Ideal) xb w (ix2 p q) = ∑ k : Fin 256, xb (ix2 p k) * w (ix2 k q) :=
  product_apply xb w p q
/-- … and so is the second's: the two bodies are one text. -/
theorem pay2_apply (xb : Vec Ideal S5000x256 .f32) (w : Vec Ideal S256x256 .f32) (p : Fin 5000) (q : Fin 256) :
    k2_pay1 (F := Ideal) xb w (ix2 p q) = ∑ k : Fin 256, xb (ix2 p k) * w (ix2 k q) :=
  product_apply xb w p q

end Cert.KernelIdeal.BlockProduct

end
-- ==== Proof.BiasRelu.lean ====
/-
  The bias-and-rectify body, read at an entry.

  The body loads a block of 5000 rows and the bias as a 1 × 256 row, repeats the row down the block, adds, and takes the
  maximum with a splat of zero. Its two shape casts are casts of a shape to itself. So at row `p` and column `q` of
  the block the stored value is `max (x p q + b 0 q) 0`, the zero being the value of the all-zero f32 word.
-/
import proofs.«117845_j26242250178564_1_alg».proof.Proof.Gen.KernelIdeal.Skeleton
import Idealize.ShloMosaic.Lib.ValueIdx
import Idealize.ShloMosaic.Lib.Pipeline.Value

noncomputable section

namespace Cert.KernelIdeal.BiasRelu

open Cert.KernelIdeal Cert.KernelIdeal.Gen Idealize.ShloMosaic Idealize.ShloMosaic.ValueIdx

/-- The bias row repeated down the block, at row `p` and column `q`, is the row's entry in column `q`. -/
theorem row_down (bb : Vec Ideal S1x256 .f32) (p : Fin 5000) (q : Fin 256) :
    broadcastTo S5000x256 bb broadcasts_S1x256_S5000x256 (ix2 p q) = bb (ix2 (0 : Fin 1) q) :=
  broadcastTo_apply bb broadcasts_S1x256_S5000x256 (ix2 p q) (ix2 (0 : Fin 1) q) fun a => by
    match a with
    | ⟨0, _⟩ => rfl
    | ⟨1, _⟩ => rfl

/-- What the body stores, at row `p` and column `q` of the block. -/
theorem stored_apply (xb : Vec Ideal S5000x256 .f32) (bb : Vec Ideal S1x256 .f32) (p : Fin 5000) (q : Fin 256) :
    maximumf (addf (shapeCast S5000x256 xb shapeCasts_S5000x256_S5000x256)
        (broadcastTo S5000x256 (shapeCast S1x256 bb shapeCasts_S1x256_S1x256) broadcasts_S1x256_S5000x256))
      (broadcast S5000x256 (Scalar.ofBits (F := Ideal) .f32 0x00000000#32)) (ix2 p q)
      = max (xb (ix2 p q) + bb (ix2 (0 : Fin 1) q)) (Scalar.ofBits (F := Ideal) .f32 0x00000000#32) := by
  rw [shapeCast_self, shapeCast_self, maximumf_apply, addf_apply, row_down, broadcast_apply]

/-- The first bias region's stored value … -/
theorem pay1_apply (xb : Vec Ideal S5000x256 .f32) (bb : Vec Ideal S1x256 .f32) (p : Fin 5000) (q : Fin 256) :
    k1_pay1 (F := Ideal) xb bb (ix2 p q)
      = max (xb (ix2 p q) + bb (ix2 (0 : Fin 1) q)) (Scalar.ofBits (F := Ideal) .f32 0x00000000#32) :=
  stored_apply xb bb p q
/-- … and the second's: one text. -/
theorem pay3_apply (xb : Vec Ideal S5000x256 .f32) (bb : Vec Ideal S1x256 .f32) (p : Fin 5000) (q : Fin 256) :
    k3_pay1 (F := Ideal) xb bb (ix2 p q)
      = max (xb (ix2 p q) + bb (ix2 (0 : Fin 1) q)) (Scalar.ofBits (F := Ideal) .f32 0x00000000#32) :=
  stored_apply xb bb p q

end Cert.KernelIdeal.BiasRelu

end
-- ==== Proof.Regions.lean ====
/-
  Each kernel region's result array as ONE function of the arrays the region finds.

  All four regions run over ten grid points; point `t` reads rows `5000 t … 5000 t + 4999` of its first operand, the
  whole of its second, and writes back the same rows of its result. The blocks tile the result, so the result array ends
  holding whatever whole-array function the blocks are restrictions of:
  * for the two matmul regions, the host's `dot_general` of the two arrays (the reference's stage): entry (r, q) is the
    sum over `k` of `x r k · w k q`, and block row `p` of point `t` is array row `5000 t + p`;
  * for the two bias regions, `max (a r q + b 0 q) 0`.
  The arrays are those the region finds on entry, kept as a parameter: nothing here looks at how they were computed.
-/
import proofs.«117845_j26242250178564_1_alg».proof.Proof.Gen.KernelIdeal.Frame
import proofs.«117845_j26242250178564_1_alg».proof.Proof.RefRead
import proofs.«117845_j26242250178564_1_alg».proof.Proof.BlockProduct
import proofs.«117845_j26242250178564_1_alg».proof.Proof.BiasRelu
import Idealize.ShloMosaic.Lib.Pipeline.Value
import Idealize.ShloMosaic.Lib.ValueIdx

set_option maxRecDepth 16384

noncomputable section

open scoped BigOperators

namespace Cert.KernelIdeal.Regions

open Cert.KernelIdeal Cert.KernelIdeal.Gen
open Idealize.ShloMosaic Idealize.ShloMosaic.TcCoe Idealize.SL.Sem Idealize.ShloMosaic.ValueIdx
open Idealize.ShloMosaic.Pipeline (Dat)
open Cert.ReferenceIdeal.ReadP (val_main_v33 val_main_v33_apply lidx_main_v33 ridx_main_v33
  val_main_v51 val_main_v51_apply lidx_main_v51 ridx_main_v51)

/-- An array of 50000 rows with the 1 × 256 row `bb` added to every row, negative entries replaced by zero. -/
def rectify (a : Vec Ideal S50000x256 .f32) (bb : Vec Ideal S1x256 .f32) : Vec Ideal S50000x256 .f32 :=
  fun i => max (a i + bb (ix2 (0 : Fin 1) (⟨(i 1).val, idx2_lt1 i⟩ : Fin 256))) (Scalar.ofBits (F := Ideal) .f32 0x00000000#32)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the first relation's features times its weights -/

/-- The windows' block indices at every grid point: the rows' window and the result's window sit at block row `t`, the
    right operand's window is the whole array. Decided once over the ten points. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product: entry (p, q) of the block is the sum over `k` of
    row `5000 t + p` of the left operand against column `q` of the right one, and that is entry (5000 t + p, q) of the
    host's product of the whole arrays. -/
theorem flushed0 (c : Dev nD) (t : Fin cfg0.N) :
    (dat0 V c).flushed 2 t = ((cfg0.win 2).blk t).view.read (Elt Ideal)
      (val_main_v33 (F := Ideal) (V c main_arg0) (V c main_arg3)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x256) hz]
  funext j
  show k0_pay1 (iblk0 V c 0 t) (iblk0 V c 1 t) j
      = val_main_v33 (F := Ideal) (V c main_arg0) (V c main_arg3) (((cfg0.win 2).blk t).view.emb j)
  obtain ⟨p, q, rfl⟩ : ∃ (p : Fin 5000) (q : Fin 256), j = (ix2 p q : S5000x256.Idx) :=
    ⟨j 0, j 1, eq_ix2 (n0 := 5000) (n1 := 256) j⟩
  obtain ⟨e00, e01, e10, e11, e20, e21⟩ := idx0 t
  rw [Cert.KernelIdeal.BlockProduct.pay0_apply, val_main_v33_apply]
  refine Finset.sum_congr rfl fun k _ => ?_
  have hl : iblk0 V c 0 t (ix2 p k : S5000x256.Idx)
      = V c main_arg0 (lidx_main_v33 (((cfg0.win 2).blk t).view.emb (ix2 p q : S5000x256.Idx)) k) := by
    show V c main_arg0 (((cfg0.win 0).blk t).view.emb (ix2 p k : S5000x256.Idx)) = _
    refine congrArg (V c main_arg0) (funext fun a => Fin.ext ?_)
    match a with
    | ⟨0, _⟩ => show win0_0.index t (0 : Fin 2) * 5000 + 1 * p.val = win0_2.index t (0 : Fin 2) * 5000 + 1 * p.val; rw [e00, e20]
    | ⟨1, _⟩ => show win0_0.index t (1 : Fin 2) * 256 + 1 * k.val = k.val; rw [e01]; omega
  have hr : iblk0 V c 1 t (ix2 k q : S256x256.Idx)
      = V c main_arg3 (ridx_main_v33 (((cfg0.win 2).blk t).view.emb (ix2 p q : S5000x256.Idx)) k) := by
    show V c main_arg3 (((cfg0.win 1).blk t).view.emb (ix2 k q : S256x256.Idx)) = _
    refine congrArg (V c main_arg3) (funext fun a => Fin.ext ?_)
    match a with
    | ⟨0, _⟩ => show win0_1.index t (0 : Fin 2) * 256 + 1 * k.val = k.val; rw [e10]; omega
    | ⟨1, _⟩ => show win0_1.index t (1 : Fin 2) * 256 + 1 * q.val = win0_2.index t (1 : Fin 2) * 256 + 1 * q.val; rw [e11, e21]
  rw [hl, hr]

/-- Every entry of the result lies in the block of the point its row falls to: row `r` in block `r / 5000`. -/
theorem cover0 (i : S50000x256.Idx) :
    ∃ t : Fin cfg0.N, (cfg0.win 2).flush t = true ∧ i ∈ ((cfg0.win 2).blk t).view.set := by
  have hi0 : (i 0).val < 50000 := idx2_lt0 i
  have hi1 : (i 1).val < 256 := idx2_lt1 i
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, e20, e21⟩ := idx0 t
  refine ⟨t, flush0_2 t, ?_⟩
  show i ∈ ((View.whole main_v33).slice (win0_2.rect t)).set
  rw [View.set_slice_whole, Rect.mem_set_unit]
  intro a
  match a with
  | ⟨0, _⟩ =>
    show win0_2.index t (0 : Fin 2) * 5000 ≤ (i 0).val ∧ (i 0).val < win0_2.index t (0 : Fin 2) * 5000 + 5000
    rw [e20, ht]; omega
  | ⟨1, _⟩ =>
    show win0_2.index t (1 : Fin 2) * 256 ≤ (i 1).val ∧ (i 1).val < win0_2.index t (1 : Fin 2) * 256 + 256
    rw [e21]; omega

/-- So the region's result array ends holding the host's product of the two arrays as the region found them. -/
theorem product0 (c : Dev nD) :
    (dat0 V c).arrAt 2 cfg0.N = val_main_v33 (F := Ideal) (V c main_arg0) (V c main_arg3) :=
  (dat0 V c).arrAt_eq_of_cover 2 _ (fun t _ => flushed0 V c t) (cover0)

/-! ## Region 1: the first relation's summed messages, bias added, rectified -/

/-- The block indices: the summed messages' window and the result's window at block row `t`, the bias row's window the
    whole 1 × 256 array. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole array rectified against the bias row. -/
theorem flushed1 (c : Dev nD) (t : Fin cfg1.N) :
    (dat1 V c).flushed 2 t = ((cfg1.win 2).blk t).view.read (Elt Ideal) (rectify (V c main_v46) (V c main_v47)) := by
  show (cfg1.win 2).cut (grid1.coords t) ((dat1 V c).after 2 t) = _
  rw [after1_2]
  unfold out1_2
  rw [View.canon_unit_zero hz]
  simp only [View.ld_unit_zero (S := S5000x256) hz, View.ld_unit_zero (S := S1x256) hz]
  funext j
  show k1_pay1 (iblk1 V c 0 t) (iblk1 V c 1 t) j
      = rectify (V c main_v46) (V c main_v47) (((cfg1.win 2).blk t).view.emb j)
  obtain ⟨p, q, rfl⟩ : ∃ (p : Fin 5000) (q : Fin 256), j = (ix2 p q : S5000x256.Idx) :=
    ⟨j 0, j 1, eq_ix2 (n0 := 5000) (n1 := 256) j⟩
  obtain ⟨e00, e01, e10, e11, e20, e21⟩ := idx1 t
  rw [Cert.KernelIdeal.BiasRelu.pay1_apply]
  unfold rectify
  have ha : iblk1 V c 0 t (ix2 p q : S5000x256.Idx)
      = V c main_v46 (((cfg1.win 2).blk t).view.emb (ix2 p q : S5000x256.Idx)) := by
    show V c main_v46 (((cfg1.win 0).blk t).view.emb (ix2 p q : S5000x256.Idx)) = _
    refine congrArg (V c main_v46) (funext fun a => Fin.ext ?_)
    match a with
    | ⟨0, _⟩ => show win1_0.index t (0 : Fin 2) * 5000 + 1 * p.val = win1_2.index t (0 : Fin 2) * 5000 + 1 * p.val; rw [e00, e20]
    | ⟨1, _⟩ => show win1_0.index t (1 : Fin 2) * 256 + 1 * q.val = win1_2.index t (1 : Fin 2) * 256 + 1 * q.val; rw [e01, e21]
  rw [ha]
  -- the two sides now differ only in the bias summand
  congr 2
  show V c main_v47 (((cfg1.win 1).blk t).view.emb (ix2 (0 : Fin 1) q : S1x256.Idx)) = V c main_v47 _
  refine congrArg (V c main_v47) (funext fun a => Fin.ext ?_)
  match a with
  | ⟨0, _⟩ => show win1_1.index t (0 : Fin 2) * 1 + 1 * 0 = 0; rw [e10]
  | ⟨1, _⟩ => show win1_1.index t (1 : Fin 2) * 256 + 1 * q.val = win1_2.index t (1 : Fin 2) * 256 + 1 * q.val; rw [e11, e21]

/-- Every entry of the result lies in the block of the point its row falls to. -/
theorem cover1 (i : S50000x256.Idx) :
    ∃ t : Fin cfg1.N, (cfg1.win 2).flush t = true ∧ i ∈ ((cfg1.win 2).blk t).view.set := by
  have hi0 : (i 0).val < 50000 := idx2_lt0 i
  have hi1 : (i 1).val < 256 := idx2_lt1 i
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, e20, e21⟩ := idx1 t
  refine ⟨t, flush1_2 t, ?_⟩
  show i ∈ ((View.whole main_v48).slice (win1_2.rect t)).set
  rw [View.set_slice_whole, Rect.mem_set_unit]
  intro a
  match a with
  | ⟨0, _⟩ =>
    show win1_2.index t (0 : Fin 2) * 5000 ≤ (i 0).val ∧ (i 0).val < win1_2.index t (0 : Fin 2) * 5000 + 5000
    rw [e20, ht]; omega
  | ⟨1, _⟩ =>
    show win1_2.index t (1 : Fin 2) * 256 ≤ (i 1).val ∧ (i 1).val < win1_2.index t (1 : Fin 2) * 256 + 256
    rw [e21]; omega

/-- So the region's result array ends holding the rectified array. -/
theorem rectified1 (c : Dev nD) :
    (dat1 V c).arrAt 2 cfg1.N = rectify (V c main_v46) (V c main_v47) :=
  (dat1 V c).arrAt_eq_of_cover 2 _ (fun t _ => flushed1 V c t) (cover1)

/-! ## Region 2: the second relation's features times its weights -/

/-- The windows' block indices at every grid point: the rows' window and the result's window sit at block row `t`, the
    right operand's window is the whole array. Decided once over the ten points. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product: entry (p, q) of the block is the sum over `k` of
    row `5000 t + p` of the left operand against column `q` of the right one, and that is entry (5000 t + p, q) of the
    host's product of the whole arrays. -/
theorem flushed2 (c : Dev nD) (t : Fin cfg2.N) :
    (dat2 V c).flushed 2 t = ((cfg2.win 2).blk t).view.read (Elt Ideal)
      (val_main_v51 (F := Ideal) (V c main_arg1) (V c main_arg5)) := by
  show (cfg2.win 2).cut (grid2.coords t) ((dat2 V c).after 2 t) = _
  rw [after2_2]
  unfold out2_2
  rw [View.canon_unit_zero hz]
  simp only [View.ld_unit_zero (S := S5000x256) hz, View.ld_unit_zero (S := S256x256) hz]
  funext j
  show k2_pay1 (iblk2 V c 0 t) (iblk2 V c 1 t) j
      = val_main_v51 (F := Ideal) (V c main_arg1) (V c main_arg5) (((cfg2.win 2).blk t).view.emb j)
  obtain ⟨p, q, rfl⟩ : ∃ (p : Fin 5000) (q : Fin 256), j = (ix2 p q : S5000x256.Idx) :=
    ⟨j 0, j 1, eq_ix2 (n0 := 5000) (n1 := 256) j⟩
  obtain ⟨e00, e01, e10, e11, e20, e21⟩ := idx2 t
  rw [Cert.KernelIdeal.BlockProduct.pay2_apply, val_main_v51_apply]
  refine Finset.sum_congr rfl fun k _ => ?_
  have hl : iblk2 V c 0 t (ix2 p k : S5000x256.Idx)
      = V c main_arg1 (lidx_main_v51 (((cfg2.win 2).blk t).view.emb (ix2 p q : S5000x256.Idx)) k) := by
    show V c main_arg1 (((cfg2.win 0).blk t).view.emb (ix2 p k : S5000x256.Idx)) = _
    refine congrArg (V c main_arg1) (funext fun a => Fin.ext ?_)
    match a with
    | ⟨0, _⟩ => show win2_0.index t (0 : Fin 2) * 5000 + 1 * p.val = win2_2.index t (0 : Fin 2) * 5000 + 1 * p.val; rw [e00, e20]
    | ⟨1, _⟩ => show win2_0.index t (1 : Fin 2) * 256 + 1 * k.val = k.val; rw [e01]; omega
  have hr : iblk2 V c 1 t (ix2 k q : S256x256.Idx)
      = V c main_arg5 (ridx_main_v51 (((cfg2.win 2).blk t).view.emb (ix2 p q : S5000x256.Idx)) k) := by
    show V c main_arg5 (((cfg2.win 1).blk t).view.emb (ix2 k q : S256x256.Idx)) = _
    refine congrArg (V c main_arg5) (funext fun a => Fin.ext ?_)
    match a with
    | ⟨0, _⟩ => show win2_1.index t (0 : Fin 2) * 256 + 1 * k.val = k.val; rw [e10]; omega
    | ⟨1, _⟩ => show win2_1.index t (1 : Fin 2) * 256 + 1 * q.val = win2_2.index t (1 : Fin 2) * 256 + 1 * q.val; rw [e11, e21]
  rw [hl, hr]

/-- Every entry of the result lies in the block of the point its row falls to: row `r` in block `r / 5000`. -/
theorem cover2 (i : S50000x256.Idx) :
    ∃ t : Fin cfg2.N, (cfg2.win 2).flush t = true ∧ i ∈ ((cfg2.win 2).blk t).view.set := by
  have hi0 : (i 0).val < 50000 := idx2_lt0 i
  have hi1 : (i 1).val < 256 := idx2_lt1 i
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, e20, e21⟩ := idx2 t
  refine ⟨t, flush2_2 t, ?_⟩
  show i ∈ ((View.whole main_v49).slice (win2_2.rect t)).set
  rw [View.set_slice_whole, Rect.mem_set_unit]
  intro a
  match a with
  | ⟨0, _⟩ =>
    show win2_2.index t (0 : Fin 2) * 5000 ≤ (i 0).val ∧ (i 0).val < win2_2.index t (0 : Fin 2) * 5000 + 5000
    rw [e20, ht]; omega
  | ⟨1, _⟩ =>
    show win2_2.index t (1 : Fin 2) * 256 ≤ (i 1).val ∧ (i 1).val < win2_2.index t (1 : Fin 2) * 256 + 256
    rw [e21]; omega

/-- So the region's result array ends holding the host's product of the two arrays as the region found them. -/
theorem product2 (c : Dev nD) :
    (dat2 V c).arrAt 2 cfg2.N = val_main_v51 (F := Ideal) (V c main_arg1) (V c main_arg5) :=
  (dat2 V c).arrAt_eq_of_cover 2 _ (fun t _ => flushed2 V c t) (cover2)

/-! ## Region 3: the second relation's summed messages, bias added, rectified -/

/-- The block indices: the summed messages' window and the result's window at block row `t`, the bias row's window the
    whole 1 × 256 array. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole array rectified against the bias row. -/
theorem flushed3 (c : Dev nD) (t : Fin cfg3.N) :
    (dat3 V c).flushed 2 t = ((cfg3.win 2).blk t).view.read (Elt Ideal) (rectify (V c main_v62) (V c main_v63)) := by
  show (cfg3.win 2).cut (grid3.coords t) ((dat3 V c).after 2 t) = _
  rw [after3_2]
  unfold out3_2
  rw [View.canon_unit_zero hz]
  simp only [View.ld_unit_zero (S := S5000x256) hz, View.ld_unit_zero (S := S1x256) hz]
  funext j
  show k3_pay1 (iblk3 V c 0 t) (iblk3 V c 1 t) j
      = rectify (V c main_v62) (V c main_v63) (((cfg3.win 2).blk t).view.emb j)
  obtain ⟨p, q, rfl⟩ : ∃ (p : Fin 5000) (q : Fin 256), j = (ix2 p q : S5000x256.Idx) :=
    ⟨j 0, j 1, eq_ix2 (n0 := 5000) (n1 := 256) j⟩
  obtain ⟨e00, e01, e10, e11, e20, e21⟩ := idx3 t
  rw [Cert.KernelIdeal.BiasRelu.pay3_apply]
  unfold rectify
  have ha : iblk3 V c 0 t (ix2 p q : S5000x256.Idx)
      = V c main_v62 (((cfg3.win 2).blk t).view.emb (ix2 p q : S5000x256.Idx)) := by
    show V c main_v62 (((cfg3.win 0).blk t).view.emb (ix2 p q : S5000x256.Idx)) = _
    refine congrArg (V c main_v62) (funext fun a => Fin.ext ?_)
    match a with
    | ⟨0, _⟩ => show win3_0.index t (0 : Fin 2) * 5000 + 1 * p.val = win3_2.index t (0 : Fin 2) * 5000 + 1 * p.val; rw [e00, e20]
    | ⟨1, _⟩ => show win3_0.index t (1 : Fin 2) * 256 + 1 * q.val = win3_2.index t (1 : Fin 2) * 256 + 1 * q.val; rw [e01, e21]
  rw [ha]
  -- the two sides now differ only in the bias summand
  congr 2
  show V c main_v63 (((cfg3.win 1).blk t).view.emb (ix2 (0 : Fin 1) q : S1x256.Idx)) = V c main_v63 _
  refine congrArg (V c main_v63) (funext fun a => Fin.ext ?_)
  match a with
  | ⟨0, _⟩ => show win3_1.index t (0 : Fin 2) * 1 + 1 * 0 = 0; rw [e10]
  | ⟨1, _⟩ => show win3_1.index t (1 : Fin 2) * 256 + 1 * q.val = win3_2.index t (1 : Fin 2) * 256 + 1 * q.val; rw [e11, e21]

/-- Every entry of the result lies in the block of the point its row falls to. -/
theorem cover3 (i : S50000x256.Idx) :
    ∃ t : Fin cfg3.N, (cfg3.win 2).flush t = true ∧ i ∈ ((cfg3.win 2).blk t).view.set := by
  have hi0 : (i 0).val < 50000 := idx2_lt0 i
  have hi1 : (i 1).val < 256 := idx2_lt1 i
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, e20, e21⟩ := idx3 t
  refine ⟨t, flush3_2 t, ?_⟩
  show i ∈ ((View.whole main_v64).slice (win3_2.rect t)).set
  rw [View.set_slice_whole, Rect.mem_set_unit]
  intro a
  match a with
  | ⟨0, _⟩ =>
    show win3_2.index t (0 : Fin 2) * 5000 ≤ (i 0).val ∧ (i 0).val < win3_2.index t (0 : Fin 2) * 5000 + 5000
    rw [e20, ht]; omega
  | ⟨1, _⟩ =>
    show win3_2.index t (1 : Fin 2) * 256 ≤ (i 1).val ∧ (i 1).val < win3_2.index t (1 : Fin 2) * 256 + 256
    rw [e21]; omega

/-- So the region's result array ends holding the rectified array. -/
theorem rectified3 (c : Dev nD) :
    (dat3 V c).arrAt 2 cfg3.N = rectify (V c main_v62) (V c main_v63) :=
  (dat3 V c).arrAt_eq_of_cover 2 _ (fun t _ => flushed3 V c t) (cover3)

end Cert.KernelIdeal.Regions

end
-- ==== Proof.Fold.lean ====
/-
  The two result buffers, read back through the program.

  The first result is the second region's result array: the summed messages of the first relation, bias added and
  rectified. The summed messages are what the host stretch between the first two regions computes from the first
  region's result array (the features times the weights), the edge sources and destinations and the edge weights: a
  gather of feature rows at the sources, a product with the weights, a scatter-add at the destinations. The reference
  computes the same stage by the same operations from its own product, so the buffer holds the reference's stage. The
  bias row is the bias argument reshaped. The second result is the same through the third and fourth regions and the
  stretch between them; the edge data and the second relation's arguments reach those regions untouched, since no region
  owns them and no stretch in between writes them.
-/
import proofs.«117845_j26242250178564_1_alg».proof.Proof.HostReads
import proofs.«117845_j26242250178564_1_alg».proof.Proof.Regions

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.ReadP
open Cert.KernelIdeal.HostReads (edges)
open Cert.KernelIdeal.Regions (rectify)

variable (m : (ℓ : Loc nD τ sig) → Buf (Elt Ideal) ℓ) (ρ : Dev nD → PrngReg)

/-- The bias argument `b` as the 1 × 256 row the bias regions load. -/
abbrev biasRow (b : Vec Ideal S256 .f32) : Vec Ideal S1x256 .f32 := shapeCast S1x256 b shapeCasts_S256_S1x256

/-! ## The first relation -/

/-- After the first region its result array is the host's product of the features and the weights. -/
theorem feat4 (c : Dev nD) : W4 m ρ c (Proc.devRef .tc main_v33)
    = val_main_v33 (F := Ideal) (m ((c : Thread nD τ).loc main_arg0)) (m ((c : Thread nD τ).loc main_arg3)) :=
  (W4_arr m ρ c 2).trans ((Regions.product0 (V3 m ρ) c).trans
    (congrArg₂ (val_main_v33 (F := Ideal)) (HostReads.arg0_3 m ρ c) (HostReads.arg3_3 m ρ c)))

/-- The first region owns none of the edge data nor the first bias: they are as at its entry. -/
theorem src4 (c : Dev nD) : W4 m ρ c (Proc.devRef .tc main_v4) = val_main_v4 (F := Ideal) (edges m c) :=
  (W4_of_ne m ρ c main_v4 (by decide)).trans (HostReads.src3 m ρ c)
theorem dst4 (c : Dev nD) : W4 m ρ c (Proc.devRef .tc main_v7) = val_main_v7 (F := Ideal) (edges m c) :=
  (W4_of_ne m ρ c main_v7 (by decide)).trans (HostReads.dst3 m ρ c)
theorem weight4 (c : Dev nD) : W4 m ρ c (Proc.devRef .tc main_v32) = val_main_v32 (F := Ideal) (edges m c) :=
  (W4_of_ne m ρ c main_v32 (by decide)).trans (HostReads.weight3 m ρ c)
theorem bias4 (c : Dev nD) : W4 m ρ c (Proc.devRef .tc main_arg4) = m ((c : Thread nD τ).loc main_arg4) :=
  (W4_of_ne m ρ c main_arg4 (by decide)).trans (HostReads.arg4_3 m ρ c)

/-- The stretch after the first region leaves the reference's summed messages in %46 … -/
theorem agg5 (c : Dev nD) : W5 m ρ c (Proc.devRef .tc main_v46)
    = val_main_v46 (F := Ideal) (m ((c : Thread nD τ).loc main_arg0)) (edges m c) (m ((c : Thread nD τ).loc main_arg3)) := by
  show StableHlo.after hostOps1 (W4 m ρ c) (Proc.devRef .tc main_v46) = _
  have e33 := feat4 m ρ c
  have e4 := src4 m ρ c
  have e7 := dst4 m ρ c
  have e32 := weight4 m ρ c
  generalize W4 m ρ c = U at e33 e4 e7 e32 ⊢
  after_results_simp
  unfold val_main_v46 val_main_v45 val_main_v44 val_main_cst_9 val_main_v43 val_main_v42 val_main_v41 val_main_v40 val_main_v39
    val_main_v38 val_main_v37 val_main_c_8 val_main_v36 val_main_v35 val_main_c_7 val_main_v34
  rw [← e33, ← e4, ← e7, ← e32]
  rfl
/-- … and the bias as a row in %47. -/
theorem row5 (c : Dev nD) : W5 m ρ c (Proc.devRef .tc main_v47) = biasRow (m ((c : Thread nD τ).loc main_arg4)) := by
  show StableHlo.after hostOps1 (W4 m ρ c) (Proc.devRef .tc main_v47) = _
  have e := bias4 m ρ c
  generalize W4 m ρ c = U at e ⊢
  after_results_simp
  rw [← e]
  rfl

/-- The first result: the summed messages, bias added, rectified. -/
theorem result0 (c : Dev nD) : W9 m ρ c (Proc.devRef .tc main_v48)
    = rectify (val_main_v46 (F := Ideal) (m ((c : Thread nD τ).loc main_arg0)) (edges m c) (m ((c : Thread nD τ).loc main_arg3)))
        (biasRow (m ((c : Thread nD τ).loc main_arg4))) :=
  (W9_of_ne m ρ c main_v48 (by decide)).trans <|
  (show W8 m ρ c (Proc.devRef .tc main_v48) = W7 m ρ c (Proc.devRef .tc main_v48) by unwritten [hostOps3]).trans <|
  (W7_of_ne m ρ c main_v48 (by decide)).trans <|
  (W6_arr m ρ c 2).trans ((Regions.rectified1 (V5 m ρ) c).trans (congrArg₂ rectify (agg5 m ρ c) (row5 m ρ c)))

/-! ## The second relation -/

/-- A buffer the first two regions do not own and the stretch between them does not write is, at the third region's
    entry, as at the first's. -/
theorem kept6 (c : Dev nD) (b : Ref sig .tc) (h0 : ∀ w, Pipeline.arrRef spec0 w ≠ b)
    (h1 : StableHlo.after hostOps1 (W4 m ρ c) (Proc.devRef .tc b) = W4 m ρ c (Proc.devRef .tc b))
    (h2 : ∀ w, Pipeline.arrRef spec1 w ≠ b) : W6 m ρ c (Proc.devRef .tc b) = W3 m ρ c (Proc.devRef .tc b) :=
  (W6_of_ne m ρ c b h2).trans (h1.trans (W4_of_ne m ρ c b h0))

theorem feat7 (c : Dev nD) : W7 m ρ c (Proc.devRef .tc main_v49)
    = val_main_v51 (F := Ideal) (m ((c : Thread nD τ).loc main_arg1)) (m ((c : Thread nD τ).loc main_arg5)) :=
  (W7_arr m ρ c 2).trans ((Regions.product2 (V6 m ρ) c).trans
    (congrArg₂ (val_main_v51 (F := Ideal))
      ((kept6 m ρ c main_arg1 (by decide) (by unwritten [hostOps1]) (by decide)).trans (HostReads.arg1_3 m ρ c))
      ((kept6 m ρ c main_arg5 (by decide) (by unwritten [hostOps1]) (by decide)).trans (HostReads.arg5_3 m ρ c))))

theorem src7 (c : Dev nD) : W7 m ρ c (Proc.devRef .tc main_v4) = val_main_v4 (F := Ideal) (edges m c) :=
  (W7_of_ne m ρ c main_v4 (by decide)).trans
    ((kept6 m ρ c main_v4 (by decide) (by unwritten [hostOps1]) (by decide)).trans (HostReads.src3 m ρ c))
theorem dst7 (c : Dev nD) : W7 m ρ c (Proc.devRef .tc main_v7) = val_main_v7 (F := Ideal) (edges m c) :=
  (W7_of_ne m ρ c main_v7 (by decide)).trans
    ((kept6 m ρ c main_v7 (by decide) (by unwritten [hostOps1]) (by decide)).trans (HostReads.dst3 m ρ c))
theorem weight7 (c : Dev nD) : W7 m ρ c (Proc.devRef .tc main_v32) = val_main_v32 (F := Ideal) (edges m c) :=
  (W7_of_ne m ρ c main_v32 (by decide)).trans
    ((kept6 m ρ c main_v32 (by decide) (by unwritten [hostOps1]) (by decide)).trans (HostReads.weight3 m ρ c))
theorem bias7 (c : Dev nD) : W7 m ρ c (Proc.devRef .tc main_arg6) = m ((c : Thread nD τ).loc main_arg6) :=
  (W7_of_ne m ρ c main_arg6 (by decide)).trans
    ((kept6 m ρ c main_arg6 (by decide) (by unwritten [hostOps1]) (by decide)).trans (HostReads.arg6_3 m ρ c))

theorem agg8 (c : Dev nD) : W8 m ρ c (Proc.devRef .tc main_v62)
    = val_main_v64 (F := Ideal) (m ((c : Thread nD τ).loc main_arg1)) (edges m c) (m ((c : Thread nD τ).loc main_arg5)) := by
  show StableHlo.after hostOps3 (W7 m ρ c) (Proc.devRef .tc main_v62) = _
  have e49 := feat7 m ρ c
  have e4 := src7 m ρ c
  have e7 := dst7 m ρ c
  have e32 := weight7 m ρ c
  generalize W7 m ρ c = U at e49 e4 e7 e32 ⊢
  after_results_simp
  unfold val_main_v64 val_main_v63 val_main_v62 val_main_cst_12 val_main_v61 val_main_v60 val_main_v59 val_main_v58 val_main_v57
    val_main_v56 val_main_v55 val_main_c_11 val_main_v54 val_main_v53 val_main_c_10 val_main_v52
  rw [← e49, ← e4, ← e7, ← e32]
  rfl
theorem row8 (c : Dev nD) : W8 m ρ c (Proc.devRef .tc main_v63) = biasRow (m ((c : Thread nD τ).loc main_arg6)) := by
  show StableHlo.after hostOps3 (W7 m ρ c) (Proc.devRef .tc main_v63) = _
  have e := bias7 m ρ c
  generalize W7 m ρ c = U at e ⊢
  after_results_simp
  rw [← e]
  rfl

/-- The second result. -/
theorem result1 (c : Dev nD) : W9 m ρ c (Proc.devRef .tc main_v64)
    = rectify (val_main_v64 (F := Ideal) (m ((c : Thread nD τ).loc main_arg1)) (edges m c) (m ((c : Thread nD τ).loc main_arg5)))
        (biasRow (m ((c : Thread nD τ).loc main_arg6))) :=
  (W9_arr m ρ c 2).trans ((Regions.rectified3 (V8 m ρ) c).trans (congrArg₂ rectify (agg8 m ρ c) (row8 m ρ c)))

end Cert.KernelIdeal.Fold

end
-- ==== Proof.Bridge.lean ====
/-
  The kernel's bias-and-rectify against the reference's `add`, `broadcast` and `relu`.

  The reference adds the bias, broadcast first to a 1 × 256 row and then down the 50000 rows, to the summed messages and
  takes the maximum with a broadcast zero. Read at an entry (r, q) that is `max (s r q + b q) 0`. The kernel regions
  leave `max (s r q + row 0 q) 0` where `row` is the bias reshaped to 1 × 256, and a reshape that only adds a leading
  unit axis reads its operand at the remaining coordinates: `row 0 q = b q`. On the extended reals the instance's
  maximum and sum are `max` and `+`, and the zero is the value of the same all-zero word on both sides.
-/
import proofs.«117845_j26242250178564_1_alg».proof.Proof.Regions
import proofs.«117845_j26242250178564_1_alg».proof.Proof.Fold

noncomputable section

namespace Cert.KernelIdeal.Bridge

open Cert.KernelIdeal Cert.KernelIdeal.Gen
open Idealize.ShloMosaic Idealize.ShloMosaic.ValueIdx
open Cert.ReferenceIdeal.ReadP
open Cert.KernelIdeal.Regions (rectify)
open Cert.KernelIdeal.Fold (biasRow)

/-- The bias as a row, at column `q`, is the bias at `q`. -/
theorem biasRow_apply (b : Vec Ideal S256 .f32) (q : Fin 256) : biasRow b (ix2 (0 : Fin 1) q) = b (ix1 q) :=
  (shapeCast_addUnit_apply (n := 1) ![256] b shapeCasts_S256_S1x256 (ix2 (0 : Fin 1) q)).trans
    (congrArg b (funext fun a => by match a with | ⟨0, _⟩ => rfl))

/-- The first relation: rectifying the summed messages against the bias row is the reference's last stage. -/
theorem rectify_eq_relu0 (x0 : Vec Ideal S50000x256 .f32) (x2 : IVec S800000x2 32) (x3 : Vec Ideal S256x256 .f32)
    (x4 : Vec Ideal S256 .f32) :
    rectify (val_main_v46 (F := Ideal) x0 x2 x3) (biasRow x4) = val_main_v50 (F := Ideal) x0 x2 x3 x4 := by
  funext i
  rw [val_main_v50_apply, val_main_v49_apply, val_main_v48_apply, val_main_v47_apply, val_main_call1_v0_apply,
    val_main_call1_cst_apply]
  unfold rectify
  rw [biasRow_apply]
  have hidx : (ix1 (⟨(i 1).val, idx2_lt1 i⟩ : Fin 256) : S256.Idx) = idx_main_v47 (idx_main_v48 i) :=
    funext fun a => by match a with | ⟨0, _⟩ => rfl
  rw [hidx]
  rfl

/-- The second relation: the same, at its own stages. -/
theorem rectify_eq_relu1 (x1 : Vec Ideal S50000x256 .f32) (x2 : IVec S800000x2 32) (x5 : Vec Ideal S256x256 .f32)
    (x6 : Vec Ideal S256 .f32) :
    rectify (val_main_v64 (F := Ideal) x1 x2 x5) (biasRow x6) = val_main_v68 (F := Ideal) x1 x2 x5 x6 := by
  funext i
  rw [val_main_v68_apply, val_main_v67_apply, val_main_v66_apply, val_main_v65_apply, val_main_call2_v0_apply,
    val_main_call2_cst_apply]
  unfold rectify
  rw [biasRow_apply]
  have hidx : (ix1 (⟨(i 1).val, idx2_lt1 i⟩ : Fin 256) : S256.Idx) = idx_main_v65 (idx_main_v66 i) :=
    funext fun a => by match a with | ⟨0, _⟩ => rfl
  rw [hidx]
  rfl

end Cert.KernelIdeal.Bridge

end
-- ==== Proof.lean ====
/-
  A graph convolution with self-loops and symmetric degree normalisation, followed by a rectifier, for two relations
  over one edge list: the kernel program against its plain reference, over the extended reals.

  Both programs build from the edge list the sources and destinations with one self-loop per node appended, the
  in-degrees, the weights `d⁻¹ᐟ²[src] · d⁻¹ᐟ²[dst]`, and for each relation compute
  `relu (scatter_add_dst (weight · (x · W)[src]) + b)`. The host operations on the edge list, the gather, the product with
  the weights and the scatter-add are the same operations in both programs. The kernel program differs in two places per
  relation: `x · W` is computed in ten blocks of 5000 rows on the matrix unit, the operands narrowed to bf16 and the
  accumulator started at zero, and the bias and the rectifier are applied block by block to a bias reshaped to a row.
  On the extended reals a change of float format is the identity and a block's product is the same finite sum, entry by
  entry, as the whole product's rows; the blocks tile the array; and the bias row at column `q` is the bias at `q`. So
  both programs end with the same two arrays. No algebraic law beyond re-indexing a finite sum is used, and the
  finiteness of the inputs is not needed.

  The modules: BlockProduct and BiasRelu read the two kernel bodies at an entry; Regions turns each region's blocks into
  one whole-array function; KernelRun states the kernel program's run with its results named; HostReads and Fold read
  those results back through the host operations and the regions as the reference's own stages; Bridge identifies the
  rectified array with the reference's last stage. RefRun and RefRead are the reference's run and its stages.
-/
import proofs.«117845_j26242250178564_1_alg».proof.Defs
import proofs.«117845_j26242250178564_1_alg».proof.Proof.Gen.Kernel
import proofs.«117845_j26242250178564_1_alg».proof.Proof.Gen.Kernel.Frame
import proofs.«117845_j26242250178564_1_alg».proof.Proof.Gen.KernelIdeal
import proofs.«117845_j26242250178564_1_alg».proof.Proof.Gen.KernelIdeal.Frame
import proofs.«117845_j26242250178564_1_alg».proof.Proof.Gen.ReferenceIdeal
import proofs.«117845_j26242250178564_1_alg».proof.Proof.Gen.Pre_finite_inputs
import proofs.«117845_j26242250178564_1_alg».proof.Proof.RefRun
import proofs.«117845_j26242250178564_1_alg».proof.Proof.RefRead
import proofs.«117845_j26242250178564_1_alg».proof.Proof.KernelRun
import proofs.«117845_j26242250178564_1_alg».proof.Proof.Fold
import proofs.«117845_j26242250178564_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ
/-- So does its idealization. -/
theorem frame_kernelIdeal : Cert.frame_KernelIdeal := fun m ρ _ => Cert.KernelIdeal.Gen.frame m ρ
/-- The reference is host operations only: its run, the two results forgotten. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The ideal pass rewrote nothing in the kernel program: there is nothing to preserve. -/
theorem preserves : Cert.preserves_Kernel_KernelIdeal := trivial

/-- From memories that agree on the seven arguments the two programs end with the same two result arrays. -/
theorem algebraic : Cert.algebraic_KernelIdeal_ReferenceIdeal := by
  intro m ρ m' ρ' _ hagree
  refine ⟨fun c => Cert.KernelIdeal.Gen.W9 m ρ c (Proc.devRef .tc Cert.KernelIdeal.main_v48),
    fun c => Cert.KernelIdeal.Gen.W9 m ρ c (Proc.devRef .tc Cert.KernelIdeal.main_v64),
    Cert.KernelIdeal.Results.run (F := Ideal) m ρ, ?_⟩
  refine (θ_run Cert.ReferenceIdeal.defs _ _).mono (fun _ h c => ?_) (Cert.ReferenceIdeal.ValueP.run (F := Ideal) m' ρ')
  obtain ⟨a0, a1, a2, a3, a4, a5, a6⟩ := hagree c
  refine ⟨(h c).1.trans ?_, (h c).2.1.trans ?_, (h c).2.2⟩
  · show Cert.ReferenceIdeal.ValueP.res_main_v50 m' c
        = Cert.KernelIdeal.Gen.W9 m ρ c (Proc.devRef .tc Cert.KernelIdeal.main_v48)
    rw [Cert.ReferenceIdeal.ReadP.val_main_v50_eq, a0, a2, a3, a4, Cert.KernelIdeal.Fold.result0]
    exact (Cert.KernelIdeal.Bridge.rectify_eq_relu0 _ _ _ _).symm
  · show Cert.ReferenceIdeal.ValueP.res_main_v68 m' c
        = Cert.KernelIdeal.Gen.W9 m ρ c (Proc.devRef .tc Cert.KernelIdeal.main_v64)
    rw [Cert.ReferenceIdeal.ReadP.val_main_v68_eq, a1, a2, a5, a6, Cert.KernelIdeal.Fold.result1]
    exact (Cert.KernelIdeal.Bridge.rectify_eq_relu1 _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
